-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x1x128 : Shape := ⟨3, ![16, 1, 128]⟩
abbrev S1x4096x3 : Shape := ⟨3, ![1, 4096, 3]⟩
abbrev S1x3x4096 : Shape := ⟨3, ![1, 3, 4096]⟩
abbrev S1x1x128 : Shape := ⟨3, ![1, 1, 128]⟩
abbrev S1x4096 : Shape := ⟨2, ![1, 4096]⟩
abbrev S1x1 : Shape := ⟨2, ![1, 1]⟩
abbrev S3x4096 : Shape := ⟨2, ![3, 4096]⟩
abbrev S4096 : Shape := ⟨1, ![4096]⟩
abbrev S1x512x3 : Shape := ⟨3, ![1, 512, 3]⟩
abbrev S512x3 : Shape := ⟨2, ![512, 3]⟩
abbrev S512 : Shape := ⟨1, ![512]⟩
abbrev S512x1 : Shape := ⟨2, ![512, 1]⟩
abbrev S512x4096 : Shape := ⟨2, ![512, 4096]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x1x128, .f32⟩
  | .hbm, ⟨4, _⟩ => ⟨S16x1x1, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x128, .f32⟩
  | .local _ .vmem, ⟨5, _⟩ => ⟨S1x1x128, .f32⟩
  | .local _ .vmem, ⟨6, _⟩ => ⟨S1x4096, .f32⟩
  | .local _ .vmem, ⟨7, _⟩ => ⟨S1x1, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32_19 : BitVec 32 := 0#32
  let c0_i32 : BitVec 32 := 0#32
  let c1_i32 : BitVec 32 := 1#32
  let arg6 : BitVec 32 := Scf.iv c0_i32 c1_i32 k0_t1
  let c1_i32_18 : BitVec 32 := 1#32
  let v24 : BitVec 32 := Scalar.muli arg6 c1_i32_18
  let v25 : BitVec 32 := Scalar.addi c0_i32_19 v24
  let c512_i32 : BitVec 32 := 512#32
  let v26 : BitVec 32 := Scalar.muli v25 c512_i32
  v26
def k0_off1 (k0_t1 : Fin k0_t1_loop.trips) : Fin 3 → Nat :=
  let c0_20 : Index := 0#32
  let c0_i32_19 : BitVec 32 := 0#32
  let c0_i32 : BitVec 32 := 0#32
  let c1_i32 : BitVec 32 := 1#32
  let arg6 : BitVec 32 := Scf.iv c0_i32 c1_i32 k0_t1
  let c1_i32_18 : BitVec 32 := 1#32
  let v24 : BitVec 32 := Scalar.muli arg6 c1_i32_18
  let v25 : BitVec 32 := Scalar.addi c0_i32_19 v24
  let c512_i32 : BitVec 32 := 512#32
  let v26 : BitVec 32 := Scalar.muli v25 c512_i32
  let v27 : BitVec 32 := v26
  let v28 : Index := Scalar.indexCast v27
  let c0_21 : Index := 0#32
  ![0, v28.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x4096x3_S16x3x4096_0_2_1 : S16x4096x3.Transposes [0, 2, 1] S16x3x4096
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x512x3 : 0 < S1x512x3.numel
  shapeCasts_S1x512x3_S512x3 : S1x512x3.ShapeCasts S512x3
  reduces_S512x3_S512 : S512x3.Reduces [1] S512
  shapeCasts_S512_S512x1 : S512.ShapeCasts S512x1
  broadcasts_S512x1_S512x4096 : S512x1.Broadcasts S512x4096
  broadcasts_S1x4096_S512x4096 : S1x4096.Broadcasts S512x4096
  reduces_S512x4096_S512 : S512x4096.Reduces [1] S512
  reduces_S512x1_S1 : S512x1.Reduces [0] S1
  shapeCasts_S1_S1x1 : S1.ShapeCasts S1x1
  reduces_S512x4096_S4096 : S512x4096.Reduces [0] S4096
  reduces_S1x4096_S1 : S1x4096.Reduces [1] S1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  dot_S512x3_S3x4096_S512x4096_1_0_0_1_n_n_wf : DotDims.WF S512x3 S3x4096 S512x4096 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x3.size a ≤ S1x4096x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x4096x3.size a
  hwx0_0 : ∀ i : grid0.Coords, EltTy.bits .f32 = 32 ∨ (Rect.block (s := S16x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Body.lean ====
/-
  What the kernel's body leaves in its output block, as one closed term of the two input blocks.

  The body fills one scratch row `acc_yx` (a [1, 4096] row, one entry per point of the second cloud) with +∞ and one
  scratch cell `acc_xy` (a [1, 1] cell) with −∞; then, eight times, it loads the next 512 points of the first cloud,
  and replaces the cell by a function of the tile and the cell, and the row by a function of the tile and the row; at
  the end it stores one function of the row and the cell into its whole output block. So the scratch contents after
  `k` trips satisfy a two-line recursion (`scratchAfter`), and the output block is the last function at trip eight.
  Nothing here looks inside those functions: they are the named payloads of the body's stores, at any float instance.
-/
import proofs.«180744_j3006477107868_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A whole-buffer store, read back -/

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-- After a list of stores whose LAST one went through the whole buffer, the buffer reads that store's payload,
    whatever the earlier stores and the prior contents were. -/
theorem read_writes_cons_whole {sg : RefSig} {κ : Kind} {sp : Space} {S : Shape} {e : EltTy} {Val : EltTy → Type}
    [∀ e, Nonempty (Val e)] (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.2 (Or.inl rfl), View.mem_set_unit_zero h inb y⟩),
    View.canon_cons_unit_zero h inb]

/-! ## One trip's stores -/

/-- Trip `k` stores, through the whole row, the row's payload of the first cloud's block, the tile it loads and the
    row as it finds it. -/
theorem trip_row (𝒱 : Variants) (c : Dev nD) (bd : Option 𝒱.V) (i : grid0.Coords) (arg1 : Memref sig .tc .vmem S1x4096x3 .f32) (harg1 : arg1.IsWhole) (arg2 : Memref sig .tc .vmem S1x3x4096 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole)
    (v0 : Vec F S1x3x4096 .f32) (X : BufTy.Contents (Elt F) arg1.view.ty) (k : Fin k0_t1_loop.trips)
    (f4 : BufTy.Contents (Elt F) arg4.view.ty) (f5 : BufTy.Contents (Elt F) arg5.view.ty) :
    (trip_k0_t1 (F := F) 𝒱 c bd i arg1 harg1 arg2 harg2 arg3 harg3 arg4 harg4 arg5 harg5 v0 X k).1 f4 f5
      = [⟨Rect.unit (s := S1x4096) ![0, 0] S1x4096.size inb_S1x4096_S1x4096_0_0,
          k0_pay5 v0 (View.readAt (Elt F) arg1.view (Rect.unit (s := S1x4096x3) (k0_off1 k) S1x512x3.size (k0_off1_inb k)).toLoadRect X)
            (View.readAt (Elt F) arg4.view (Rect.unit (s := S1x4096) ![0, 0] S1x4096.size inb_S1x4096_S1x4096_0_0).toLoadRect f4)⟩] := by
  unfold trip_k0_t1; rfl

/-- And, through the whole cell, the cell's payload of the same block and tile and the cell as it finds it. -/
theorem trip_cell (𝒱 : Variants) (c : Dev nD) (bd : Option 𝒱.V) (i : grid0.Coords) (arg1 : Memref sig .tc .vmem S1x4096x3 .f32) (harg1 : arg1.IsWhole) (arg2 : Memref sig .tc .vmem S1x3x4096 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole)
    (v0 : Vec F S1x3x4096 .f32) (X : BufTy.Contents (Elt F) arg1.view.ty) (k : Fin k0_t1_loop.trips)
    (f4 : BufTy.Contents (Elt F) arg4.view.ty) (f5 : BufTy.Contents (Elt F) arg5.view.ty) :
    (trip_k0_t1 (F := F) 𝒱 c bd i arg1 harg1 arg2 harg2 arg3 harg3 arg4 harg4 arg5 harg5 v0 X k).2.1 f4 f5
      = [⟨Rect.unit (s := S1x1) ![0, 0] S1x1.size inb_S1x1_S1x1_0_0,
          k0_pay4 v0 (View.readAt (Elt F) arg1.view (Rect.unit (s := S1x4096x3) (k0_off1 k) S1x512x3.size (k0_off1_inb k)).toLoadRect X)
            (View.readAt (Elt F) arg5.view (Rect.unit (s := S1x1) ![0, 0] S1x1.size inb_S1x1_S1x1_0_0).toLoadRect f5)⟩] := by
  unfold trip_k0_t1; rfl

/-! ## The scratch contents after `k` trips -/

/-- The 512 points trip `k` loads: rows `512 k … 512 k + 511` of the first cloud's block. -/
def tileOf (x0 : Vec F S1x4096x3 .f32) (k : Fin k0_t1_loop.trips) : Vec F S1x512x3 .f32 :=
  View.ld x0 (Rect.unit (s := S1x4096x3) (k0_off1 k) S1x512x3.size (k0_off1_inb k))

/-- The row and the cell after `k` trips, from the two input blocks: the fills, then one payload each per trip. -/
def scratchAfter (x0 : Vec F S1x4096x3 .f32) (x1 : Vec F S1x3x4096 .f32) : ℕ → Vec F S1x4096 .f32 × Vec F S1x1 .f32
  | 0 => (k0_pay1, k0_pay2)
  | k + 1 =>
    if h : k < k0_t1_loop.trips then
      (k0_pay5 x1 (tileOf x0 ⟨k, h⟩) (scratchAfter x0 x1 k).1, k0_pay4 x1 (tileOf x0 ⟨k, h⟩) (scratchAfter x0 x1 k).2)
    else scratchAfter x0 x1 k

theorem scratchAfter_succ (x0 : Vec F S1x4096x3 .f32) (x1 : Vec F S1x3x4096 .f32) (k : ℕ) (h : k < k0_t1_loop.trips) :
    scratchAfter x0 x1 (k + 1)
      = (k0_pay5 x1 (tileOf x0 ⟨k, h⟩) (scratchAfter x0 x1 k).1, k0_pay4 x1 (tileOf x0 ⟨k, h⟩) (scratchAfter x0 x1 k).2) := by
  rw [scratchAfter.eq_2]; exact dif_pos h

/-- THE LOOP'S INVARIANT, as contents: the pieces of the first `k` trips, written over buffers that read the fills,
    leave the row and the cell at `scratchAfter k`. -/
theorem scratch_after (𝒱 : Variants) (c : Dev nD) (bd : Option 𝒱.V) (i : grid0.Coords) (arg1 : Memref sig .tc .vmem S1x4096x3 .f32) (harg1 : arg1.IsWhole) (arg2 : Memref sig .tc .vmem S1x3x4096 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole)
    (x0 : Vec F S1x4096x3 .f32) (x1 : Vec F S1x3x4096 .f32) (X : BufTy.Contents (Elt F) arg1.view.ty)
    (hX : arg1.view.read (Elt F) X = x0)
    (G4 : BufTy.Contents (Elt F) arg4.view.ty) (G5 : BufTy.Contents (Elt F) arg5.view.ty)
    (h4 : arg4.view.read (Elt F) G4 = k0_pay1) (h5 : arg5.view.read (Elt F) G5 = k0_pay2) :
    ∀ k, k ≤ k0_t1_loop.trips →
      arg4.view.read (Elt F) (arg4.view.writes (Elt F) G4 (pb_k0_t1 (F := F) 𝒱 c bd i arg1 harg1 arg2 harg2 arg3 harg3 arg4 harg4 arg5 harg5 x1 X G4 G5 k).1) = (scratchAfter x0 x1 k).1
      ∧ arg5.view.read (Elt F) (arg5.view.writes (Elt F) G5 (pb_k0_t1 (F := F) 𝒱 c bd i arg1 harg1 arg2 harg2 arg3 harg3 arg4 harg4 arg5 harg5 x1 X G4 G5 k).2) = (scratchAfter x0 x1 k).2
  | 0, _ => ⟨h4, h5⟩
  | k + 1, hk => by
    have hk' : k < k0_t1_loop.trips := hk
    obtain ⟨ih4, ih5⟩ := scratch_after 𝒱 c bd i arg1 harg1 arg2 harg2 arg3 harg3 arg4 harg4 arg5 harg5 x0 x1 X hX G4 G5 h4 h5 k (Nat.le_of_lt hk')
    have e := pb_k0_t1_succ (F := F) 𝒱 c bd i arg1 harg1 arg2 harg2 arg3 harg3 arg4 harg4 arg5 harg5 x1 X G4 G5 ⟨k, hk'⟩
    rw [show ((⟨k, hk'⟩ : Fin k0_t1_loop.trips).val + 1) = k + 1 from rfl] at e
    rw [e, scratchAfter_succ x0 x1 k hk']
    dsimp only [tripL_k0_t1]
    rw [trip_row, trip_cell]
    simp only [List.cons_append, List.nil_append]
    rw [read_writes_cons_whole _ _ zero2, read_writes_cons_whole _ _ zero2]
    simp only [View.readAt_eq_ld, hX, ih4, ih5, View.ld_unit_zero (S := S1x4096) zero2, View.ld_unit_zero (S := S1x1) zero2]
    exact ⟨rfl, rfl⟩

/-! ## The output block -/

/-- The body's output block, from the two input blocks: the last payload of the row and the cell after all the
    trips. -/
theorem out_eq (c : Dev nD) (i : grid0.Coords) (arg1 : Memref sig .tc .vmem S1x4096x3 .f32) (harg1 : arg1.IsWhole) (arg2 : Memref sig .tc .vmem S1x3x4096 .f32) (harg2 : arg2.IsWhole) (arg3 : Memref sig .tc .vmem S1x1x128 .f32) (harg3 : arg3.IsWhole) (arg4 : Memref sig .tc .vmem S1x4096 .f32) (harg4 : arg4.IsWhole) (arg5 : Memref sig .tc .vmem S1x1 .f32) (harg5 : arg5.IsWhole)
    (x0 : Vec F S1x4096x3 .f32) (x1 : Vec F S1x3x4096 .f32) :
    out0_A_2 c i arg1 harg1 arg2 harg2 arg3 harg3 arg4 harg4 arg5 harg5 x0 x1
      = k0_pay6 (scratchAfter x0 x1 k0_t1_loop.trips).1 (scratchAfter x0 x1 k0_t1_loop.trips).2 := by
  unfold out0_A_2
  rw [View.read_writes_eq_canon _ _ _ (cover0_A_2 c i arg1 harg1 arg2 harg2 arg3 harg3 arg4 harg4 arg5 harg5 x0 x1)]
  unfold kernelRun0_A
  dsimp only
  sl_unfold_words
  rw [View.canon_unit_zero zero3]
  have e1 : View.readAt (Elt F) arg2.view (Rect.unit (s := S1x3x4096) ![0, 0, 0] S1x3x4096.size inb_S1x3x4096_S1x3x4096_0_0_0).toLoadRect (harg2.unread x1) = x1 := by
    rw [View.readAt_eq_ld, harg2.read_unread, View.ld_unit_zero (S := S1x3x4096) zero3]
  rw [e1]
  have key := scratch_after (F := F) Variants.none c none i arg1 harg1 arg2 harg2 arg3 harg3 arg4 harg4 arg5 harg5 x0 x1 (harg1.unread x0) (harg1.read_unread x0)
    (arg4.view.writes (Elt F) arg4.view.junk [⟨Rect.unit (s := S1x4096) ![0, 0] S1x4096.size inb_S1x4096_S1x4096_0_0, k0_pay1⟩])
    (arg5.view.writes (Elt F) arg5.view.junk [⟨Rect.unit (s := S1x1) ![0, 0] S1x1.size inb_S1x1_S1x1_0_0, k0_pay2⟩])
    (read_writes_cons_whole _ _ zero2 _ _ _) (read_writes_cons_whole _ _ zero2 _ _ _) k0_t1_loop.trips le_rfl
  simp only [View.writes_append, View.readAt_eq_ld]
  rw [show Scf.trips k0_t1_loop.lb k0_t1_loop.ub k0_t1_loop.st = k0_t1_loop.trips from rfl, key.1, key.2,
    View.ld_unit_zero (S := S1x4096) zero2, View.ld_unit_zero (S := S1x1) zero2]

end Cert.KernelIdeal.Body

end
-- ==== Proof.Lattice.lean ====
/-
  Order theory of the two-sided nearest-neighbour loss, over the extended reals and abstract finite index types.

  For a table of distances `d n m` the loss is
      max (max over n of (min over m of d n m)) (max over m of (min over n of d n m)).
  A minimum over a finite type is the fold of `min` from the top element and a maximum the fold of `max` from the bottom
  element; each is characterised by its universal property (`c ≤ min … ↔ ∀ …`, `max … ≤ c ↔ ∀ …`), and two elements of a
  partial order with the same upper (or lower) bounds are equal. That is all that is used below: no arithmetic.

  The rows `n` may be visited tile by tile: `n = R·k + r` for a tile `k` and a row `r` inside it. A running maximum that
  starts at the bottom element and absorbs, tile after tile, the tile's own "max over its rows of the row minimum", ends
  at the maximum over all rows; a running minimum per column that starts at the top element and absorbs each tile's
  column minimum ends at the column's minimum over all rows.
-/
import Idealize.ShloMosaic.PureOps.Ideal
import Mathlib.Data.Finset.Fold

noncomputable section

namespace Cert.Lattice

variable {ι κ : Type} [Fintype ι] [Fintype κ]

/-- The minimum of a finite family: the fold of `min` from the top element. -/
def infOver (f : ι → EReal) : EReal := (Finset.univ : Finset ι).fold min ⊤ f
/-- The maximum of a finite family: the fold of `max` from the bottom element. -/
def supOver (f : ι → EReal) : EReal := (Finset.univ : Finset ι).fold max ⊥ f

theorem le_infOver (f : ι → EReal) (c : EReal) : c ≤ infOver f ↔ ∀ i, c ≤ f i := by
  unfold infOver
  rw [Finset.le_fold_min]
  exact ⟨fun h i => h.2 i (Finset.mem_univ i), fun h => ⟨le_top, fun i _ => h i⟩⟩

theorem supOver_le (f : ι → EReal) (c : EReal) : supOver f ≤ c ↔ ∀ i, f i ≤ c := by
  unfold supOver
  rw [Finset.fold_max_le]
  exact ⟨fun h i => h.2 i (Finset.mem_univ i), fun h => ⟨bot_le, fun i _ => h i⟩⟩

/-- The loss of a table of distances. -/
def loss (d : ι → κ → EReal) : EReal :=
  max (supOver fun n => infOver fun m => d n m) (supOver fun m => infOver fun n => d n m)

/-! ## Accumulating over tiles -/

section Tiles

variable {K : ℕ}

/-- A running maximum from the bottom element: after `j` steps its upper bounds are the common upper bounds of the
    first `j` contributions. -/
theorem runMax_le (T : Fin K → EReal) (a : ℕ → EReal) (h0 : a 0 = ⊥)
    (hs : ∀ k (h : k < K), a (k + 1) = max (a k) (T ⟨k, h⟩)) (c : EReal) :
    ∀ j, j ≤ K → (a j ≤ c ↔ ∀ k (h : k < K), k < j → T ⟨k, h⟩ ≤ c)
  | 0, _ => by rw [h0]; exact ⟨fun _ k _ hk => absurd hk (Nat.not_lt_zero k), fun _ => bot_le⟩
  | j + 1, hj => by
    have hjK : j < K := hj
    rw [hs j hjK, max_le_iff, runMax_le T a h0 hs c j (Nat.le_of_lt hjK)]
    constructor
    · rintro ⟨h1, h2⟩ k hk hkj
      rcases Nat.lt_succ_iff_lt_or_eq.1 hkj with h | h
      · exact h1 k hk h
      · subst h; exact h2
    · intro h
      exact ⟨fun k hk hkj => h k hk (Nat.lt_succ_of_lt hkj), h j hjK (Nat.lt_succ_self j)⟩

/-- A running minimum from the top element: after `j` steps its lower bounds are the common lower bounds of the first
    `j` contributions. -/
theorem le_runMin (T : Fin K → EReal) (a : ℕ → EReal) (h0 : a 0 = ⊤)
    (hs : ∀ k (h : k < K), a (k + 1) = min (a k) (T ⟨k, h⟩)) (c : EReal) :
    ∀ j, j ≤ K → (c ≤ a j ↔ ∀ k (h : k < K), k < j → c ≤ T ⟨k, h⟩)
  | 0, _ => by rw [h0]; exact ⟨fun _ k _ hk => absurd hk (Nat.not_lt_zero k), fun _ => le_top⟩
  | j + 1, hj => by
    have hjK : j < K := hj
    rw [hs j hjK, le_min_iff, le_runMin T a h0 hs c j (Nat.le_of_lt hjK)]
    constructor
    · rintro ⟨h1, h2⟩ k hk hkj
      rcases Nat.lt_succ_iff_lt_or_eq.1 hkj with h | h
      · exact h1 k hk h
      · subst h; exact h2
    · intro h
      exact ⟨fun k hk hkj => h k hk (Nat.lt_succ_of_lt hkj), h j hjK (Nat.lt_succ_self j)⟩

variable {R N : ℕ}

/-- A row of a tile is a row of the table. -/
theorem row_lt (hN : N = K * R) (k : Fin K) (r : Fin R) : R * k.val + r.val < N := by
  rw [hN]
  calc R * k.val + r.val < R * k.val + R := Nat.add_lt_add_left r.isLt _
    _ = R * (k.val + 1) := by ring
    _ ≤ R * K := Nat.mul_le_mul_left _ k.isLt
    _ = K * R := Nat.mul_comm _ _

/-- Every row is a row of some tile. -/
theorem forall_rows (hN : N = K * R) (P : Fin N → Prop) :
    (∀ n, P n) ↔ ∀ (k : Fin K) (r : Fin R), P ⟨R * k.val + r.val, row_lt hN k r⟩ := by
  constructor
  · intro h k r; exact h _
  · intro h n
    have hn : n.val < R * K := by rw [Nat.mul_comm, ← hN]; exact n.isLt
    have hR : 0 < R := by
      rcases Nat.eq_zero_or_pos R with h0 | h0
      · rw [h0, Nat.zero_mul] at hn; exact absurd hn (Nat.not_lt_zero _)
      · exact h0
    have hk : n.val / R < K := Nat.div_lt_of_lt_mul hn
    have := h ⟨n.val / R, hk⟩ ⟨n.val % R, Nat.mod_lt _ hR⟩
    have e : (⟨R * (n.val / R) + n.val % R, row_lt hN ⟨n.val / R, hk⟩ ⟨n.val % R, Nat.mod_lt _ hR⟩⟩ : Fin N) = n :=
      Fin.ext (Nat.div_add_mod _ _)
    rw [e] at this; exact this

/-- THE TILED LOSS. Rows `n = R·k + r`; `tile k r m` the distance of row `r` of tile `k` to column `m`. A running maximum
    `a` absorbing each tile's max-of-row-minima and a running column minimum `b` absorbing each tile's column minima end
    with `max (a K) (max over m of b K m)` equal to the loss of the whole table. -/
theorem tiled_loss (hN : N = K * R) (d : Fin N → κ → EReal) (tile : Fin K → Fin R → κ → EReal)
    (htile : ∀ (k : Fin K) (r : Fin R) (m : κ), tile k r m = d ⟨R * k.val + r.val, row_lt hN k r⟩ m)
    (a : ℕ → EReal) (ha0 : a 0 = ⊥)
    (has : ∀ k (h : k < K), a (k + 1) = max (a k) (supOver fun r => infOver fun m => tile ⟨k, h⟩ r m))
    (b : ℕ → κ → EReal) (hb0 : ∀ m, b 0 m = ⊤)
    (hbs : ∀ k (h : k < K) m, b (k + 1) m = min (b k m) (infOver fun r => tile ⟨k, h⟩ r m)) :
    max (a K) (supOver fun m => b K m) = loss d := by
  have htile' : ∀ (k : Fin K) (r : Fin R), (fun m => tile k r m) = fun m => d ⟨R * k.val + r.val, row_lt hN k r⟩ m :=
    fun k r => funext fun m => htile k r m
  unfold loss
  congr 1
  · refine eq_of_forall_ge_iff fun c => ?_
    rw [runMax_le (fun k => supOver fun r => infOver fun m => tile k r m) a ha0 has c K le_rfl, supOver_le,
      forall_rows hN]
    constructor
    · intro h k r
      have := (supOver_le _ c).1 (h k.val k.isLt k.isLt) r
      rw [htile' ⟨k.val, k.isLt⟩ r] at this; exact this
    · intro h k hk _
      refine (supOver_le _ c).2 fun r => ?_
      rw [htile' ⟨k, hk⟩ r]; exact h ⟨k, hk⟩ r
  · refine congrArg supOver (funext fun m => ?_)
    refine eq_of_forall_le_iff fun c => ?_
    rw [le_runMin (fun k => infOver fun r => tile k r m) (fun j => b j m) (hb0 m) (fun k h => hbs k h m) c K le_rfl,
      le_infOver, forall_rows hN]
    constructor
    · intro h k r
      have := (le_infOver _ c).1 (h k.val k.isLt k.isLt) r
      rw [htile ⟨k.val, k.isLt⟩ r m] at this; exact this
    · intro h k hk _
      refine (le_infOver _ c).2 fun r => ?_
      rw [htile ⟨k, hk⟩ r m]; exact h ⟨k, hk⟩ r

end Tiles

end Cert.Lattice

end
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Consts.lean ====
/-
  The float words the two programs spell, as the extended reals they denote: the two infinities (the reductions'
  initial values and the scratch fills), and the scale 2 of the reference and −2 of the kernel.
-/
import Idealize.ShloMosaic.PureOps.Ideal
import Idealize.ShloMosaic.PureOps.Ideal.Laws

noncomputable section

namespace Cert.Consts

open Idealize.ShloMosaic

/-- The word of +∞ denotes the top element. -/
theorem ofBits_posInf : Ideal.ofBits .f32 0x7F800000#32 = (⊤ : EReal) := by simp [Ideal.ofBits, Ideal.ieee]
/-- The word of −∞ denotes the bottom element. -/
theorem ofBits_negInf : Ideal.ofBits .f32 0xFF800000#32 = (⊥ : EReal) := by simp [Ideal.ofBits, Ideal.ieee]
/-- The word of 2.0 denotes the real 2. -/
theorem ofBits_two : Ideal.ofBits .f32 0x40000000#32 = ((2 : ℝ) : EReal) := by
  simp [Ideal.ofBits, Ideal.ieee, -EReal.coe_mul]; norm_num
/-- The word of −2.0 denotes the real −2. -/
theorem ofBits_negTwo : Ideal.ofBits .f32 0xC0000000#32 = ((-2 : ℝ) : EReal) := by
  simp [Ideal.ofBits, Ideal.ieee, -EReal.coe_mul]; norm_num

end Cert.Consts

end
-- ==== Proof.Payloads.lean ====
/-
  The body's payloads at the ideal values, read at an index.

  Write `P r d` for coordinate `d` of row `r` of the 512-point tile and `Q d m` for coordinate `d` of point `m` of the
  second cloud (the block arrives transposed, [1, 3, 4096]). At the extended reals
    * the distance table of a tile is  dist r m = (Σ_d P r d · P r d  +  Σ_d Q d m · Q d m)  +  Σ_d P r d · (c · Q d m),
      `c` the value of the word 0xC0000000 (the sums over the three coordinates, the last one the matrix product into
      a zero accumulator);
    * the cell's payload is  max cell (max over r of (min over m of dist r m));
    * the row's payload at `m` is  min (row m) (min over r of dist r m);
    * the output's payload is, at every lane,  max cell (max over m of row m).
  A `min` over an axis is the fold of `min` from the value of the word 0x7F800000, which is the top element; a `max`
  the fold of `max` from the value of 0xFF800000, the bottom element.
-/
import proofs.«180744_j3006477107868_2_alg».proof.Proof.Gen.KernelIdeal.Skeleton
import proofs.«180744_j3006477107868_2_alg».proof.Proof.Lattice
import proofs.«180744_j3006477107868_2_alg».proof.Proof.LibLayout2
import proofs.«180744_j3006477107868_2_alg».proof.Proof.LibDotRows
import proofs.«180744_j3006477107868_2_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Cert.Lattice Cert.Consts
open Idealize.ShloMosaic Idealize.ShloMosaic.ValueIdx

/-! ## Folds from the two infinities -/

theorem fold_max_eq_supOver {n : ℕ} (b : EReal) (hb : b = ⊥) (f g : Fin n → EReal) (hfg : f = g) :
    (Finset.univ : Finset (Fin n)).fold max b f = supOver g := by subst hb hfg; rfl
theorem fold_min_eq_infOver {n : ℕ} (b : EReal) (hb : b = ⊤) (f g : Fin n → EReal) (hfg : f = g) :
    (Finset.univ : Finset (Fin n)).fold min b f = infOver g := by subst hb hfg; rfl

/-! ## The body's six reductions, each at its literal shapes -/

/-- The sum over the three coordinates of a [512, 3] tile, at row `r`. -/
theorem sum_coords_tile (v : FVec Ideal S512x3 .f32) (r : Fin 512) (hφ : FTy.f32 = FTy.f32 ∨ FTy.f32 = FTy.bf16)
    (hacc : (0x00000000#32 : BitVec 32) = 0x00000000#32) :
    multiReduction (F := Ideal) .add [1] S512 v 0x00000000#32 reduces_S512x3_S512 hφ hacc (ix1 r)
      = ∑ d : Fin 3, v (ix2 r d) :=
  (Ideal.multiReduction_add_single v 0x00000000#32 reduces_S512x3_S512 hφ hacc (ix1 r)).trans
    (Finset.sum_congr rfl fun d _ => congrArg v (funext fun a => Fin.ext (by
      match a with | ⟨0, _⟩ => rfl | ⟨1, _⟩ => rfl)))

/-- The sum over the three coordinates of a [3, 4096] block, at point `m`. -/
theorem sum_coords_cloud (v : FVec Ideal S3x4096 .f32) (m : Fin 4096) (hφ : FTy.f32 = FTy.f32 ∨ FTy.f32 = FTy.bf16)
    (hacc : (0x00000000#32 : BitVec 32) = 0x00000000#32) :
    multiReduction (F := Ideal) .add [0] S4096 v 0x00000000#32 reduces_S3x4096_S4096 hφ hacc (ix1 m)
      = ∑ d : Fin 3, v (ix2 d m) :=
  (Ideal.multiReduction_add_single v 0x00000000#32 reduces_S3x4096_S4096 hφ hacc (ix1 m)).trans
    (Finset.sum_congr rfl fun d _ => congrArg v (funext fun a => Fin.ext (by
      match a with | ⟨0, _⟩ => rfl | ⟨1, _⟩ => rfl)))

/-- The minimum along a row of a [512, 4096] table. -/
theorem min_along_row (v : FVec Ideal S512x4096 .f32) (r : Fin 512) (hφ : FTy.f32 = FTy.f32 ∨ FTy.f32 = FTy.bf16)
    (hacc : (0x7F800000#32 : BitVec 32) = 0x7F800000#32) :
    multiReduction (F := Ideal) .minimumf [1] S512 v 0x7F800000#32 reduces_S512x4096_S512 hφ hacc (ix1 r)
      = infOver fun m : Fin 4096 => v (ix2 r m) :=
  ((multiReduction_minimumf_eq_fold v 0x7F800000#32 reduces_S512x4096_S512 hφ hacc (ix1 r)).trans
    (reduces_S512x4096_S512.fold_filter_drop_single _ _ v (ix1 r))).trans
    (fold_min_eq_infOver _ ofBits_posInf _ _ (funext fun m => congrArg v (funext fun a => Fin.ext (by
      match a with | ⟨0, _⟩ => rfl | ⟨1, _⟩ => rfl))))

/-- The minimum down a column of a [512, 4096] table. -/
theorem min_down_column (v : FVec Ideal S512x4096 .f32) (m : Fin 4096) (hφ : FTy.f32 = FTy.f32 ∨ FTy.f32 = FTy.bf16)
    (hacc : (0x7F800000#32 : BitVec 32) = 0x7F800000#32) :
    multiReduction (F := Ideal) .minimumf [0] S4096 v 0x7F800000#32 reduces_S512x4096_S4096 hφ hacc (ix1 m)
      = infOver fun r : Fin 512 => v (ix2 r m) :=
  ((multiReduction_minimumf_eq_fold v 0x7F800000#32 reduces_S512x4096_S4096 hφ hacc (ix1 m)).trans
    (reduces_S512x4096_S4096.fold_filter_drop_single _ _ v (ix1 m))).trans
    (fold_min_eq_infOver _ ofBits_posInf _ _ (funext fun r => congrArg v (funext fun a => Fin.ext (by
      match a with | ⟨0, _⟩ => rfl | ⟨1, _⟩ => rfl))))

/-- The maximum down the one column of a [512, 1] column. -/
theorem max_down_column (v : FVec Ideal S512x1 .f32) (u : Fin 1) (hφ : FTy.f32 = FTy.f32 ∨ FTy.f32 = FTy.bf16)
    (hacc : (0xFF800000#32 : BitVec 32) = 0xFF800000#32) :
    multiReduction (F := Ideal) .maximumf [0] S1 v 0xFF800000#32 reduces_S512x1_S1 hφ hacc (ix1 u)
      = supOver fun r : Fin 512 => v (ix2 r u) :=
  (Ideal.multiReduction_maximumf_single v 0xFF800000#32 reduces_S512x1_S1 hφ hacc (ix1 u)).trans
    (fold_max_eq_supOver _ ofBits_negInf _ _ (funext fun r => congrArg v (funext fun a => Fin.ext (by
      match a with | ⟨0, _⟩ => rfl | ⟨1, _⟩ => rfl))))

/-- The maximum along the one row of a [1, 4096] row. -/
theorem max_along_row (v : FVec Ideal S1x4096 .f32) (u : Fin 1) (hφ : FTy.f32 = FTy.f32 ∨ FTy.f32 = FTy.bf16)
    (hacc : (0xFF800000#32 : BitVec 32) = 0xFF800000#32) :
    multiReduction (F := Ideal) .maximumf [1] S1 v 0xFF800000#32 reduces_S1x4096_S1 hφ hacc (ix1 u)
      = supOver fun m : Fin 4096 => v (ix2 u m) :=
  (Ideal.multiReduction_maximumf_single v 0xFF800000#32 reduces_S1x4096_S1 hφ hacc (ix1 u)).trans
    (fold_max_eq_supOver _ ofBits_negInf _ _ (funext fun m => congrArg v (funext fun a => Fin.ext (by
      match a with | ⟨0, _⟩ => rfl | ⟨1, _⟩ => rfl))))

/-! ## The distance table of a tile -/

/-- The tile's distance table from its two blocks' coordinates. -/
def dist (P : Fin 512 → Fin 3 → EReal) (Q : Fin 3 → Fin 4096 → EReal) (r : Fin 512) (m : Fin 4096) : EReal :=
  ((∑ d : Fin 3, P r d * P r d) + ∑ d : Fin 3, Q d m * Q d m)
    + ∑ d : Fin 3, P r d * (Ideal.ofBits .f32 0xC0000000#32 * Q d m)

/-- The matrix product of the tile with the scaled cloud, at `(r, m)`. -/
theorem matmul_tile (lhs : FVec Ideal S512x3 .f32) (rhs : FVec Ideal S3x4096 .f32) (r : Fin 512) (m : Fin 4096) :
    matmul (F := Ideal) dot_S512x3_S3x4096_S512x4096_1_0_0_1_n_n (some .fp32) lhs rhs (constant S512x4096 .f32 0x00000000#32) (ix2 r m)
      = ∑ d : Fin 3, lhs (ix2 r d) * rhs (ix2 d m) :=
  matmul_zero_rows dot_S512x3_S3x4096_S512x4096_1_0_0_1_n_n (some .fp32) rfl rfl (fun _ _ => rfl) (fun _ _ => rfl)
    (fun _ _ => rfl) (fun _ _ => rfl) lhs rhs r m

theorem pay3_apply (x1 : Vec Ideal S1x3x4096 .f32) (tile : Vec Ideal S1x512x3 .f32) (r : Fin 512) (m : Fin 4096) :
    k0_pay3 (F := Ideal) x1 tile (ix2 r m)
      = dist (fun r d => tile (ix3 (0 : Fin 1) r d)) (fun d m => x1 (ix3 (0 : Fin 1) d m)) r m := by
  unfold k0_pay3 dist
  simp only [addf_apply, Layout2.broadcastTo_col_of_vector_apply, Layout2.broadcastTo_row_of_vector_apply,
    matmul_tile, mulf_apply, shapeCast_1ab_ab_apply, broadcast_apply]
  rw [sum_coords_tile, sum_coords_cloud]
  simp only [mulf_apply, shapeCast_1ab_ab_apply]
  rfl

/-! ## The fills, the two per-trip payloads and the output's -/

/-- The row's fill is +∞ everywhere. -/
theorem pay1_apply (y : S1x4096.Idx) : k0_pay1 (F := Ideal) y = (⊤ : EReal) := by
  unfold k0_pay1
  simp only [shapeCast_self, broadcast_apply]
  exact ofBits_posInf

/-- The cell's fill is −∞. -/
theorem pay2_apply (y : S1x1.Idx) : k0_pay2 (F := Ideal) y = (⊥ : EReal) := by
  unfold k0_pay2
  simp only [shapeCast_self, broadcast_apply]
  exact ofBits_negInf

/-- The cell after a trip: the larger of the cell before it and the tile's greatest row minimum. -/
theorem pay4_apply (x1 : Vec Ideal S1x3x4096 .f32) (tile : Vec Ideal S1x512x3 .f32) (cell : Vec Ideal S1x1 .f32) :
    k0_pay4 (F := Ideal) x1 tile cell (ix2 (0 : Fin 1) (0 : Fin 1))
      = max (cell (ix2 (0 : Fin 1) (0 : Fin 1)))
          (supOver fun r : Fin 512 => infOver fun m : Fin 4096 => k0_pay3 (F := Ideal) x1 tile (ix2 r m)) := by
  unfold k0_pay4
  simp only [shapeCast_self, maximumf_apply, shapeCast_a_1a_apply]
  rw [max_down_column]
  refine congrArg (max _) (congrArg supOver (funext fun r => ?_))
  rw [Layout2.shapeCast_col_apply, min_along_row]

/-- The row after a trip, at point `m`: the smaller of the row before it and the tile's column minimum there. -/
theorem pay5_apply (x1 : Vec Ideal S1x3x4096 .f32) (tile : Vec Ideal S1x512x3 .f32) (row : Vec Ideal S1x4096 .f32)
    (m : Fin 4096) :
    k0_pay5 (F := Ideal) x1 tile row (ix2 (0 : Fin 1) m)
      = min (row (ix2 (0 : Fin 1) m)) (infOver fun r : Fin 512 => k0_pay3 (F := Ideal) x1 tile (ix2 r m)) := by
  unfold k0_pay5
  simp only [shapeCast_self, minimumf_apply, shapeCast_a_1a_apply]
  rw [min_down_column]

/-- One value broadcast to the 128 lanes of the output block reads that value at every lane. -/
theorem lanes_apply (v : FVec Ideal S1x1x1 .f32) (y : S1x1x128.Idx) :
    broadcastTo S1x1x128 v broadcasts_S1x1x1_S1x1x128 y = v (ix3 (0 : Fin 1) (0 : Fin 1) (0 : Fin 1)) :=
  broadcastTo_apply v broadcasts_S1x1x1_S1x1x128 y (ix3 (0 : Fin 1) (0 : Fin 1) (0 : Fin 1)) fun ax => by
    match ax with
    | ⟨0, _⟩ => rfl
    | ⟨1, _⟩ => rfl
    | ⟨2, _⟩ => rfl

/-- The output block, at every lane: the larger of the cell and the row's maximum. -/
theorem pay6_apply (row : Vec Ideal S1x4096 .f32) (cell : Vec Ideal S1x1 .f32) (y : S1x1x128.Idx) :
    k0_pay6 (F := Ideal) row cell y
      = max (cell (ix2 (0 : Fin 1) (0 : Fin 1))) (supOver fun m : Fin 4096 => row (ix2 (0 : Fin 1) m)) := by
  unfold k0_pay6
  simp only [lanes_apply, shapeCast_ab_1ab_apply, maximumf_apply, shapeCast_a_1a_apply]
  rw [max_along_row]

end Cert.KernelIdeal.Payloads

end
-- ==== Proof.BlockValue.lean ====
/-
  The output block of a grid point is, at every lane, the loss of the point's two input blocks.

  The first cloud's block is visited in eight tiles of 512 points; row `r` of tile `k` is row `512 k + r` of the block.
  The cell starts at −∞ and after each trip is the larger of itself and the tile's greatest row minimum; the row starts
  at +∞ and after each trip is, point by point, the smaller of itself and the tile's column minimum. So the cell is a
  running maximum and every entry of the row a running minimum over the tiles, and the order theory of tiled
  accumulation (the larger of the final cell and the final row's maximum is the loss of the whole 4096 × 4096 table)
  applies as it stands.
-/
import proofs.«180744_j3006477107868_2_alg».proof.Proof.Body
import proofs.«180744_j3006477107868_2_alg».proof.Proof.Payloads

set_option maxRecDepth 16384

noncomputable section

namespace Cert.KernelIdeal.BlockValue

open Cert.KernelIdeal Cert.KernelIdeal.Gen Cert.Lattice
open Idealize.ShloMosaic Idealize.ShloMosaic.TcCoe Idealize.ShloMosaic.ValueIdx Idealize.SL.Sem

/-- The distance table of one batch from its two blocks: point `n` of the first cloud against point `m` of the second. -/
def blockDist (x0 : Vec Ideal S1x4096x3 .f32) (x1 : Vec Ideal S1x3x4096 .f32) (n m : Fin 4096) : EReal :=
  ((∑ d : Fin 3, x0 (ix3 (0 : Fin 1) n d) * x0 (ix3 (0 : Fin 1) n d))
      + ∑ d : Fin 3, x1 (ix3 (0 : Fin 1) d m) * x1 (ix3 (0 : Fin 1) d m))
    + ∑ d : Fin 3, x0 (ix3 (0 : Fin 1) n d) * (Ideal.ofBits .f32 0xC0000000#32 * x1 (ix3 (0 : Fin 1) d m))

/-- 4096 rows are the loop's trips times 512. -/
theorem rows_eq : (4096 : ℕ) = k0_t1_loop.trips * 512 := by decide

/-- Row `r` of the tile trip `k` loads is row `512 k + r` of the block. -/
theorem tileOf_apply (x0 : Vec Ideal S1x4096x3 .f32) (k : Fin k0_t1_loop.trips) (r : Fin 512) (d : Fin 3) :
    Body.tileOf x0 k (ix3 (0 : Fin 1) r d) = x0 (ix3 (0 : Fin 1) ⟨512 * k.val + r.val, row_lt rows_eq k r⟩ d) := by
  unfold Body.tileOf
  show x0 _ = x0 _
  refine congrArg x0 (funext fun a => Fin.ext ?_)
  have e := k0_off1_eq k
  match a with
  | ⟨0, _⟩ => show k0_off1 k 0 + 1 * 0 = 0; rw [e]; rfl
  | ⟨1, _⟩ => show k0_off1 k 1 + 1 * r.val = 512 * k.val + r.val; rw [e]; simp
  | ⟨2, _⟩ => show k0_off1 k 2 + 1 * d.val = d.val; rw [e]; simp

/-- The last payload of the scratch after all the trips is the loss of the batch's table, at every lane. -/
theorem block_value (x0 : Vec Ideal S1x4096x3 .f32) (x1 : Vec Ideal S1x3x4096 .f32) (y : S1x1x128.Idx) :
    k0_pay6 (F := Ideal) (Body.scratchAfter x0 x1 k0_t1_loop.trips).1 (Body.scratchAfter x0 x1 k0_t1_loop.trips).2 y
      = loss (blockDist x0 x1) := by
  rw [Payloads.pay6_apply]
  refine tiled_loss (K := k0_t1_loop.trips) (R := 512) (N := 4096) rows_eq (blockDist x0 x1)
    (fun k r m => k0_pay3 (F := Ideal) x1 (Body.tileOf x0 k) (ix2 r m)) ?_
    (fun j => (Body.scratchAfter x0 x1 j).2 (ix2 (0 : Fin 1) (0 : Fin 1))) ?_ ?_
    (fun j m => (Body.scratchAfter x0 x1 j).1 (ix2 (0 : Fin 1) m)) ?_ ?_
  · intro k r m
    rw [Payloads.pay3_apply]
    unfold Payloads.dist blockDist
    simp only [tileOf_apply]
  · show (Body.scratchAfter x0 x1 0).2 (ix2 (0 : Fin 1) (0 : Fin 1)) = ⊥
    rw [Body.scratchAfter.eq_1]; exact Payloads.pay2_apply (ix2 (0 : Fin 1) (0 : Fin 1))
  · intro k h
    show (Body.scratchAfter x0 x1 (k + 1)).2 (ix2 (0 : Fin 1) (0 : Fin 1)) = _
    rw [Body.scratchAfter_succ x0 x1 k h]
    exact Payloads.pay4_apply x1 (Body.tileOf x0 ⟨k, h⟩) _
  · intro m
    show (Body.scratchAfter x0 x1 0).1 (ix2 (0 : Fin 1) m) = ⊤
    rw [Body.scratchAfter.eq_1]; exact Payloads.pay1_apply (ix2 (0 : Fin 1) m)
  · intro k h m
    show (Body.scratchAfter x0 x1 (k + 1)).1 (ix2 (0 : Fin 1) m) = _
    rw [Body.scratchAfter_succ x0 x1 k h]
    exact Payloads.pay5_apply x1 (Body.tileOf x0 ⟨k, h⟩) _ m

/-- What the body leaves in the output's staging buffer at point `t`: the loss of the point's two input blocks. -/
theorem outsAt_value (m : (ℓ : Loc nD τ sig) → Buf (Elt Ideal) ℓ) (c : Dev nD) (t : Fin cfg0.N) (y : S1x1x128.Idx) :
    outsAt0 (F := Ideal) m c t y = loss (blockDist (iblk m c 0 t) (iblk m c 1 t)) := by
  unfold outsAt0
  rw [Body.out_eq]
  exact block_value _ _ y

end Cert.KernelIdeal.BlockValue

end
-- ==== Proof.ArrayValue.lean ====
/-
  From the sixteen output blocks to the output array.

  Grid point `t` is batch `t`: its blocks of the first cloud, of the transposed second cloud and of the output are
  all block `(t, 0, 0)` of their arrays. So the point's input blocks are the batch's slices, and the loss it writes
  into its output block is the batch's loss `lossArr … (t, ·, ·)` — one function of the two arrays, restricted to the
  block. The sixteen blocks cover the [16, 1, 128] output, so the array ends at that function; and the second array is
  the host's transpose of the second argument.
-/
import proofs.«180744_j3006477107868_2_alg».proof.Proof.BlockValue
import Idealize.ShloMosaic.Lib.Pipeline.Value
import Idealize.ShloMosaic.Lib.StableHlo.Run
import Idealize.ShloMosaic.Lib.ValueLayout

set_option maxRecDepth 16384

noncomputable section

namespace Cert.KernelIdeal.ArrayValue

open Cert.KernelIdeal Cert.KernelIdeal.Gen Cert.Lattice
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Batch `b`'s distance table from the first cloud's array and the TRANSPOSED second cloud's array. -/
def arrDist (A0 : S16x4096x3.Idx → EReal) (A1t : S16x3x4096.Idx → EReal) (b : Fin 16) (n k : Fin 4096) : EReal :=
  ((∑ d : Fin 3, A0 (ix3 b n d) * A0 (ix3 b n d)) + ∑ d : Fin 3, A1t (ix3 b d k) * A1t (ix3 b d k))
    + ∑ d : Fin 3, A0 (ix3 b n d) * (Ideal.ofBits .f32 0xC0000000#32 * A1t (ix3 b d k))

/-- The output array: at `(b, ·, ·)` the loss of batch `b`. -/
def lossArr (A0 : S16x4096x3.Idx → EReal) (A1t : S16x3x4096.Idx → EReal) : S16x1x128.Idx → EReal :=
  fun i => loss (arrDist A0 A1t ⟨(i 0).val, (i 0).isLt⟩)

/-- A block's table is the batch's table when the blocks are the batch's slices. -/
theorem blockDist_eq (x0 : Vec Ideal S1x4096x3 .f32) (x1 : Vec Ideal S1x3x4096 .f32)
    (A0 : S16x4096x3.Idx → EReal) (A1t : S16x3x4096.Idx → EReal) (b : Fin 16)
    (h0 : ∀ (n : Fin 4096) (d : Fin 3), x0 (ix3 (0 : Fin 1) n d) = A0 (ix3 b n d))
    (h1 : ∀ (d : Fin 3) (k : Fin 4096), x1 (ix3 (0 : Fin 1) d k) = A1t (ix3 b d k)) :
    BlockValue.blockDist x0 x1 = arrDist A0 A1t b := by
  funext n k
  unfold BlockValue.blockDist arrDist
  simp only [h0, h1]

/-- The printed index maps over the grid: every window's block at point `t` is block `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 16 := by
  have hN : grid0.N = 16 := N_0
  have ht : t.val < grid0.N := t.isLt
  omega

/-- The first cloud's block at point `t` is batch `t` of the array. -/
theorem iblk0_apply (c : Dev nD) (t : Fin cfg0.N) (n : Fin 4096) (d : Fin 3) :
    iblk m c 0 t (ix3 (0 : Fin 1) n d) = V m c main_arg0 (ix3 (⟨t.val, point_lt t⟩ : Fin 16) n d) := by
  obtain ⟨a0, a1, a2, -⟩ := idx_facts t
  show V m c main_arg0 (((cfg0.win 0).blk t).view.emb (ix3 (0 : Fin 1) n d)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 3 + 1 * d.val = d.val; omega

/-- The transposed second cloud's block at point `t` is batch `t` of its array. -/
theorem iblk1_apply (c : Dev nD) (t : Fin cfg0.N) (d : Fin 3) (k : Fin 4096) :
    iblk m c 1 t (ix3 (0 : Fin 1) d k) = V m c main_v0 (ix3 (⟨t.val, point_lt t⟩ : Fin 16) d k) := by
  obtain ⟨-, -, -, b0, b1, b2, -⟩ := idx_facts t
  show V m c main_v0 (((cfg0.win 1).blk t).view.emb (ix3 (0 : Fin 1) d k)) = _
  refine congrArg (V m c main_v0) (funext fun a => Fin.ext ?_)
  match a with
  | ⟨0, _⟩ => show win0_1.index t (0 : Fin 3) * 1 + 1 * 0 = t.val; omega
  | ⟨1, _⟩ => show win0_1.index t (1 : Fin 3) * 3 + 1 * d.val = d.val; omega
  | ⟨2, _⟩ => show win0_1.index t (2 : Fin 3) * 4096 + 1 * k.val = k.val; omega

/-- WHAT POINT `t` WRITES BACK is block `t` of the batches' losses of the two arrays as the region finds them. -/
theorem flushed_eq (c : Dev nD) (t : Fin cfg0.N) :
    (dats m 0 c).flushed 2 t
      = ((cfg0.win 2).blk t).view.read (Elt Ideal) (lossArr (V m c main_arg0) (V m c main_v0)) := by
  show (cfg0.win 2).cut (grid0.coords t) ((dats m 0 c).after 2 t) = _
  rw [after0_2]
  obtain ⟨-, -, -, -, -, -, c0, c1, c2⟩ := idx_facts t
  funext y
  show outsAt0 m c t y = lossArr (V m c main_arg0) (V m c main_v0) (((cfg0.win 2).blk t).view.emb y)
  rw [BlockValue.outsAt_value]
  unfold lossArr
  have hb : (⟨((((cfg0.win 2).blk t).view.emb y) 0).val, ((((cfg0.win 2).blk t).view.emb y) 0).isLt⟩ : Fin 16)
      = ⟨t.val, point_lt t⟩ := Fin.ext (by
    show win0_2.index t (0 : Fin 3) * 1 + 1 * (y 0).val = t.val
    have : (y 0).val < 1 := (y 0).isLt
    omega)
  rw [hb]
  exact congrArg loss (blockDist_eq _ _ _ _ _ (iblk0_apply m c t) (iblk1_apply m c t))

/-- An index of the output array is in point `t`'s block iff each coordinate is in the block's range on its axis. -/
theorem mem_blk (t : Fin cfg0.N) (i : S16x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v1).slice (win0_2.rect t)).set ↔ _
  rw [View.set_slice_whole, Rect.mem_set_unit]
  exact Iff.rfl

/-- Every index of the output array is in the block of the point of its batch. -/
theorem cover (i : S16x1x128.Idx) :
    ∃ t : Fin cfg0.N, (cfg0.win 2).flush t = true ∧ i ∈ ((cfg0.win 2).blk t).view.set := by
  have hN : grid0.N = 16 := N_0
  have hi0 : (i 0).val < 16 := (i 0).isLt
  have hi1 : (i 1).val < 1 := (i 1).isLt
  have hi2 : (i 2).val < 128 := (i 2).isLt
  have hlt : (i 0).val < grid0.N := by omega
  have f := idx_facts ⟨(i 0).val, hlt⟩
  have c0 : win0_2.index ⟨(i 0).val, hlt⟩ (0 : Fin 3) = (i 0).val := f.2.2.2.2.2.2.1
  have c1 : win0_2.index ⟨(i 0).val, hlt⟩ (1 : Fin 3) = 0 := f.2.2.2.2.2.2.2.1
  have c2 : win0_2.index ⟨(i 0).val, hlt⟩ (2 : Fin 3) = 0 := f.2.2.2.2.2.2.2.2
  refine ⟨⟨(i 0).val, hlt⟩, flush0_2 _, ?_⟩
  rw [mem_blk]
  intro a
  match a with
  | ⟨0, _⟩ =>
    show win0_2.index ⟨(i 0).val, hlt⟩ (0 : Fin 3) * 1 ≤ (i 0).val
      ∧ (i 0).val < win0_2.index ⟨(i 0).val, hlt⟩ (0 : Fin 3) * 1 + 1
    omega
  | ⟨1, _⟩ =>
    show win0_2.index ⟨(i 0).val, hlt⟩ (1 : Fin 3) * 1 ≤ (i 1).val
      ∧ (i 1).val < win0_2.index ⟨(i 0).val, hlt⟩ (1 : Fin 3) * 1 + 1
    omega
  | ⟨2, _⟩ =>
    show win0_2.index ⟨(i 0).val, hlt⟩ (2 : Fin 3) * 128 ≤ (i 2).val
      ∧ (i 2).val < win0_2.index ⟨(i 0).val, hlt⟩ (2 : Fin 3) * 128 + 128
    omega

/-- THE OUTPUT ARRAY after the run: the batches' losses of the two arrays as the region finds them. -/
theorem final (c : Dev nD) : (dats m 0 c).arrAt 2 cfg0.N = lossArr (V m c main_arg0) (V m c main_v0) :=
  (dats m 0 c).arrAt_eq_of_cover 2 (lossArr (V m c main_arg0) (V m c main_v0)) (fun t _ => flushed_eq m c t) cover

/-- The second array the region finds is the host's transpose of the second argument. -/
theorem V_main_v0 (c : Dev nD) :
    (V m c main_v0 : S16x3x4096.Idx → EReal)
      = transpose S16x3x4096 [0, 2, 1] (m ((c : Thread nD τ).loc main_arg1)) transposes_S16x4096x3_S16x3x4096_0_2_1 := by
  show StableHlo.after hostOps0 (fun b => m (c, b)) (Proc.devRef .tc main_v0) = _
  after_results

end Cert.KernelIdeal.ArrayValue

end
-- ==== Proof.KernelRun.lean ====
/-
  The kernel's run with its result named.

  After the region the host takes lane 0 of every batch's output row ([16, 1, 128] → [16, 1, 1] → [16]), sums the
  sixteen values from 0 and divides by 16. The output array holds batch `b`'s loss at every lane of row `b`, so the
  vector summed is the vector of the sixteen losses; the arrays the region found are the first argument and the
  host's transpose of the second.
-/
import proofs.«180744_j3006477107868_2_alg».proof.Proof.ArrayValue
import Idealize.ShloMosaic.Lib.Pipeline.Value
import Idealize.ShloMosaic.Lib.StableHlo.Run

set_option maxRecDepth 16384

noncomputable section

namespace Cert.KernelIdeal.KernelRun

open Cert.KernelIdeal Cert.KernelIdeal.Gen Cert.KernelIdeal.ArrayValue Cert.Lattice
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The sixteen losses, one per batch. -/
def lossVec (A0 : S16x4096x3.Idx → EReal) (A1t : S16x3x4096.Idx → EReal) : S16.Idx → EReal :=
  fun i => loss (arrDist A0 A1t ⟨(i 0).val, (i 0).isLt⟩)

/-- The host's last three steps: the sum from 0 of a vector of sixteen, divided by 16. -/
def meanOf (X : S16.Idx → EReal) : S_.Idx → EReal :=
  Host.divf (F := Ideal) (Host.reduceAdd (F := Ideal) X (constant (F := Ideal) S_ .f32 0x00000000#32) reducesTo_S16_S_d0 h_S_)
    (constant (F := Ideal) S_ .f32 0x41800000#32)

/-- Lane 0 of row `b`, through the slice and the reshape. -/
theorem lane0_apply (x : S16x1x128.Idx → EReal) (b : Fin 16) :
    shapeCast S16 (extractStridedSlice S16x1x1 ![0, 0, 0] x slices_S16x1x128_S16x1x1_0_0_0) shapeCasts_S16x1x1_S16 (ix1 b)
      = x (ix3 b (0 : Fin 1) (0 : Fin 128)) :=
  (shapeCast_apply _ shapeCasts_S16x1x1_S16 (ix1 b) (ix3 b (0 : Fin 1) (0 : Fin 1)) (by
    rw [Shape.rowMajor_val_three, Shape.rowMajor_val_one]
    show (b.val * 1 + 0) * 1 + 0 = b.val
    omega)).trans
  (extractStridedSlice_apply ![0, 0, 0] x slices_S16x1x128_S16x1x1_0_0_0 (ix3 b (0 : Fin 1) (0 : Fin 1))
    (ix3 b (0 : Fin 1) (0 : Fin 128)) fun a => by
      match a with
      | ⟨0, _⟩ => show b.val = 0 + b.val; omega
      | ⟨1, _⟩ => rfl
      | ⟨2, _⟩ => rfl)

/-- What the host lines after the region leave in the result buffer. -/
theorem tail_value (c : Dev nD) :
    Pipeline.afterTail₀ cfgs (dats m) 0 (V0 m) [hostOps1] c main_v5
      = meanOf (lossVec (V m c main_arg0) (V m c main_v0)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v1)
      = lossArr (V m c main_arg0) (V m c main_v0) :=
    (Pipeline.withArrays_arr spec0 launch0.win.arr_inj c _ _ 2).trans (final m c)
  rw [hw]
  unfold meanOf
  refine congrArg (fun X => Host.divf (F := Ideal) (Host.reduceAdd (F := Ideal) X (constant (F := Ideal) S_ .f32 0x00000000#32)
    reducesTo_S16_S_d0 h_S_) (constant (F := Ideal) S_ .f32 0x41800000#32)) (funext fun i => ?_)
  obtain ⟨b, rfl⟩ : ∃ b : Fin 16, i = ix1 b := ⟨i 0, eq_ix1 i⟩
  exact (lane0_apply _ b).trans rfl

/-- THE KERNEL'S RUN: every weakly fair execution terminates with the result buffer at the mean of the sixteen
    losses of the first argument and the transposed second argument, and both arguments unchanged. -/
theorem run : θ_run defs (onTc (τ := τ) (main (F := Ideal))) ⟨m, fun _ => 0, ρ⟩ (fun r => ∀ c : Dev nD,
      r.2.mem ((c.tc : Thread nD τ).loc main_v5)
        = meanOf (lossVec (m ((c.tc : Thread nD τ).loc main_arg0))
            (transpose S16x3x4096 [0, 2, 1] (m ((c.tc : Thread nD τ).loc main_arg1)) transposes_S16x4096x3_S16x3x4096_0_2_1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans
        ((tail_value m c).trans (by rw [V_main_arg0 m c, V_main_v0 m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelRun

end
-- ==== Proof.RefSide.lean ====
/-
  The reference, batch by batch: its per-batch value is the loss of its own distance table.

  For batch `b` the reference's table is
      refDist b n m = ((0 + Σ_d X b n d · X b n d) + (0 + Σ_d Y b m d · Y b m d)) − 2 · Σ_d X b n d · Y b m d
  (the two host sums with their zero initial value, the batched matrix product, the scale by the word of 2.0 and the
  subtraction). The two minima (over `m`, over `n`) and the two maxima over what is left are host reduces from +∞ and
  from −∞, that is, folds of `min` from the top element and of `max` from the bottom element over one axis.
-/
import proofs.«180744_j3006477107868_2_alg».proof.Proof.Gen.ReferenceIdeal.Read
import proofs.«180744_j3006477107868_2_alg».proof.Proof.Lattice
import proofs.«180744_j3006477107868_2_alg».proof.Proof.Consts
import Idealize.ShloMosaic.PureOps.Reduce

set_option maxRecDepth 16384

noncomputable section

namespace Cert.ReferenceIdeal.RefValue

open Cert.ReferenceIdeal Cert.ReferenceIdeal.Gen Cert.ReferenceIdeal.Read Cert.Lattice
open Idealize.ShloMosaic Idealize.ShloMosaic.ValueIdx

/-- The reference's distance table of batch `b`. -/
def refDist (x0 x1 : S16x4096x3.Idx → EReal) (b : Fin 16) (n m : Fin 4096) : EReal :=
  ((Ideal.ofBits .f32 0x00000000#32 + ∑ d : Fin 3, x0 (ix3 b n d) * x0 (ix3 b n d))
      + (Ideal.ofBits .f32 0x00000000#32 + ∑ d : Fin 3, x1 (ix3 b m d) * x1 (ix3 b m d)))
    - Ideal.ofBits .f32 0x40000000#32 * ∑ d : Fin 3, x0 (ix3 b n d) * x1 (ix3 b m d)

/-- The subtraction's result at `(b, n, m)` is the table's entry. -/
theorem v12_apply (x0 x1 : (⟨S16x4096x3, .f32⟩ : BufTy).Contents (Elt Ideal)) (b : Fin 16) (n m : Fin 4096) :
    val_main_v12 (F := Ideal) x0 x1 (ix3 b n m) = refDist x0 x1 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply, val_main_v4_apply]
  simp only [e1, e2, e3, e4, val_main_v0_apply, val_main_v2_apply, val_main_cst_apply, val_main_cst_0_apply,
    val_main_cst_1_apply]
  rfl

theorem fold_max_eq_supOver {n : ℕ} (b : EReal) (hb : b = ⊥) (f g : Fin n → EReal) (hfg : f = g) :
    (Finset.univ : Finset (Fin n)).fold max b f = supOver g := by subst hb hfg; rfl
theorem fold_min_eq_infOver {n : ℕ} (b : EReal) (hb : b = ⊤) (f g : Fin n → EReal) (hfg : f = g) :
    (Finset.univ : Finset (Fin n)).fold min b f = infOver g := by subst hb hfg; rfl

/-- The minimum over the second cloud, for point `n` of the first. -/
theorem v13_apply (x0 x1 : (⟨S16x4096x3, .f32⟩ : BufTy).Contents (Elt Ideal)) (b : Fin 16) (n : Fin 4096) :
    val_main_v13 (F := Ideal) x0 x1 (ix2 b n) = infOver fun m : Fin 4096 => refDist x0 x1 b n m := by
  unfold val_main_v13
  have h : S16x4096x4096.Reduces [2] S16x4096 := by decide
  refine (Host.reduce_eq_fold_single FloatOps.minimumf _ _ reducesTo_S16x4096x4096_S16x4096_d2 h h_S_ (ix2 b n)).trans ?_
  refine fold_min_eq_infOver _ Cert.Consts.ofBits_posInf _ _ (funext fun m => ?_)
  refine Eq.trans (congrArg (val_main_v12 (F := Ideal) x0 x1) (funext fun a => Fin.ext (by
    match a with | ⟨0, _⟩ => rfl | ⟨1, _⟩ => rfl | ⟨2, _⟩ => rfl))) (v12_apply x0 x1 b n ⟨m.val, m.isLt⟩)

/-- The minimum over the first cloud, for point `m` of the second. -/
theorem v14_apply (x0 x1 : (⟨S16x4096x3, .f32⟩ : BufTy).Contents (Elt Ideal)) (b : Fin 16) (m : Fin 4096) :
    val_main_v14 (F := Ideal) x0 x1 (ix2 b m) = infOver fun n : Fin 4096 => refDist x0 x1 b n m := by
  unfold val_main_v14
  have h : S16x4096x4096.Reduces [1] S16x4096 := by decide
  refine (Host.reduce_eq_fold_single FloatOps.minimumf _ _ reducesTo_S16x4096x4096_S16x4096_d1 h h_S_ (ix2 b m)).trans ?_
  refine fold_min_eq_infOver _ Cert.Consts.ofBits_posInf _ _ (funext fun n => ?_)
  refine Eq.trans (congrArg (val_main_v12 (F := Ideal) x0 x1) (funext fun a => Fin.ext (by
    match a with | ⟨0, _⟩ => rfl | ⟨1, _⟩ => rfl | ⟨2, _⟩ => rfl))) (v12_apply x0 x1 b ⟨n.val, n.isLt⟩ m)

/-- The reference's value of batch `b`: the loss of its table. -/
theorem v17_apply (x0 x1 : (⟨S16x4096x3, .f32⟩ : BufTy).Contents (Elt Ideal)) (b : Fin 16) :
    val_main_v17 (F := Ideal) x0 x1 (ix1 b) = loss (refDist x0 x1 b) := by
  have h : S16x4096.Reduces [1] S16 := by decide
  have lift_eq : ∀ n : Fin 4096, h.lift (ix1 b) n = ix2 b n := fun n => funext fun a => Fin.ext (by
    match a with | ⟨0, _⟩ => rfl | ⟨1, _⟩ => rfl)
  have comp_eq : ∀ y : S16x4096.Idx → EReal, (y ∘ h.lift (ix1 b)) = fun n : Fin 4096 => y (ix2 b n) :=
    fun y => funext fun n => congrArg y (lift_eq n)
  rw [val_main_v17_apply]
  unfold loss
  refine congrArg₂ max ?_ ?_
  · unfold val_main_v15
    refine (Host.reduce_eq_fold_single FloatOps.maximumf _ _ reducesTo_S16x4096_S16_d1 h h_S_ (ix1 b)).trans ?_
    have hv : (fun n : Fin 4096 => val_main_v13 (F := Ideal) x0 x1 (ix2 b n))
        = fun n : Fin 4096 => infOver fun k : Fin 4096 => refDist x0 x1 b n k :=
      funext fun n => v13_apply x0 x1 b n
    exact fold_max_eq_supOver _ Cert.Consts.ofBits_negInf _ _ ((comp_eq (val_main_v13 (F := Ideal) x0 x1)).trans hv)
  · unfold val_main_v16
    refine (Host.reduce_eq_fold_single FloatOps.maximumf _ _ reducesTo_S16x4096_S16_d1 h h_S_ (ix1 b)).trans ?_
    have hv : (fun k : Fin 4096 => val_main_v14 (F := Ideal) x0 x1 (ix2 b k))
        = fun k : Fin 4096 => infOver fun n : Fin 4096 => refDist x0 x1 b n k :=
      funext fun k => v14_apply x0 x1 b k
    exact fold_max_eq_supOver _ Cert.Consts.ofBits_negInf _ _ ((comp_eq (val_main_v14 (F := Ideal) x0 x1)).trans hv)

end Cert.ReferenceIdeal.RefValue

end
-- ==== Proof.Bridge.lean ====
/-
  The one law that joins the two sides, and where finiteness is used.

  The kernel scales the second cloud by −2 BEFORE the three-term product, the reference scales the product by 2 and
  SUBTRACTS it:   S + Σ_d a_d · ((−2) · b_d)   against   S − 2 · Σ_d a_d · b_d.
  On the extended reals moving a factor across a sum fails at infinities, so this needs every `a_d`, `b_d` real: then
  both three-term expressions are the images of the same real number. `S` (the two sums of squares) is the same
  term on both sides and stays an arbitrary extended real; the reference's zero initial values of its two host sums
  are the extended real 0; and the kernel's second array is the host's transpose of the second argument.
-/
import proofs.«180744_j3006477107868_2_alg».proof.Proof.ArrayValue
import proofs.«180744_j3006477107868_2_alg».proof.Proof.RefSide
import proofs.«180744_j3006477107868_2_alg».proof.Proof.Consts
import Idealize.ShloMosaic.Lib.ValueLayout

set_option maxRecDepth 16384

noncomputable section

namespace Cert.Bridge

open Idealize.ShloMosaic Idealize.ShloMosaic.ValueIdx Cert.Lattice

/-- Scaling each factor by −2 inside a three-term sum of real products is the negative of twice the sum. -/
theorem scale_law (α β : Fin 3 → ℝ) :
    ∑ d : Fin 3, (α d : EReal) * (((-2 : ℝ) : EReal) * (β d : EReal))
      = -(((2 : ℝ) : EReal) * ∑ d : Fin 3, (α d : EReal) * (β d : EReal)) := by
  simp only [Fin.sum_univ_three, ← EReal.coe_mul, ← EReal.coe_add, ← EReal.coe_neg]
  congr 1
  ring

/-- The kernel's table on the transposed second argument is the reference's table, entry by entry, when both
    arguments hold reals. -/
theorem arrDist_eq_refDist (x0 x1 : Cert.KernelIdeal.S16x4096x3.Idx → EReal)
    (h0 : ∀ i, ∃ r : ℝ, x0 i = (r : EReal)) (h1 : ∀ i, ∃ r : ℝ, x1 i = (r : EReal)) (b : Fin 16) :
    Cert.KernelIdeal.ArrayValue.arrDist x0
        (transpose Cert.KernelIdeal.S16x3x4096 [0, 2, 1] x1 Cert.KernelIdeal.Facts₀.transposes_S16x4096x3_S16x3x4096_0_2_1) b
      = Cert.ReferenceIdeal.RefValue.refDist x0 x1 b := by
  choose α hα using h0
  choose β hβ using h1
  funext n k
  have ht : ∀ d : Fin 3,
      transpose Cert.KernelIdeal.S16x3x4096 [0, 2, 1] x1 Cert.KernelIdeal.Facts₀.transposes_S16x4096x3_S16x3x4096_0_2_1 (ix3 b d k)
        = x1 (ix3 b k d) := fun d => transpose_ix3_021_apply x1 _ b d k
  unfold Cert.KernelIdeal.ArrayValue.arrDist Cert.ReferenceIdeal.RefValue.refDist
  simp only [ht, Ideal.ofBits_zero_f32, zero_add, Cert.Consts.ofBits_two, Cert.Consts.ofBits_negTwo, hα, hβ]
  rw [sub_eq_add_neg]
  exact congrArg (_ + ·) (scale_law (fun d => α (ix3 b n d)) (fun d => β (ix3 b k d)))

end Cert.Bridge

end
-- ==== Proof.Finite.lean ====
/-
  The precondition read back: every element of both inputs is a real number.

  The printed predicate is `all (|X| < +∞) ∧ all (|Y| < +∞)`: two reductions by `and` over every index, from 1, of the
  comparisons `|x| < +∞`. Each reduction being 1 says every comparison is 1; at the extended reals `|x|` is
  `max x (−x)`, the word of +∞ denotes the top element, and an extended real whose absolute value is below the top
  element is neither infinity: it is a real.
-/
import proofs.«180744_j3006477107868_2_alg».proof.Proof.Gen.Pre_finite_inputs
import proofs.«180744_j3006477107868_2_alg».proof.Proof.Consts
import Idealize.ShloMosaic.Lib.ReduceAll
import Idealize.ShloMosaic.Lib.ValueIdx

set_option maxRecDepth 16384

noncomputable section

namespace Cert.Finite

open Idealize.ShloMosaic Cert.Pre_finite_inputs

/-- The rank-0 shape has one index. -/
instance subsingleton_scalar : Subsingleton S_.Idx := ⟨fun a b => funext fun d => d.elim0⟩

theorem ofBool_eq_one {p : Bool} (h : BitVec.ofBool p = 1#1) : p = true := by
  cases p
  · exact absurd h (by decide)
  · rfl

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One comparison `|x| < +∞` that came out 1 makes `x` a real. -/
theorem real_of_cmp (a : FVec Ideal S16x4096x3 .f32) (i : S16x4096x3.Idx)
    (t : cmpf .olt (Host.absf a) (broadcastInDim S16x4096x3 ![] Facts.bcast_S_S16x4096x3 (constant S_ .f32 0x7F800000#32)) i = 1#1) :
    ∃ r : ℝ, a i = (r : EReal) := by
  simp only [cmpf, Host.absf, broadcastInDim, constant, Ideal.cmpf_def, Ideal.cmp] at t
  have hlt := of_decide_eq_true (ofBool_eq_one t)
  exact real_of_abs_lt_top (a i)
    ((show max (a i) (-(a i)) < Ideal.ofBits .f32 0x7F800000#32 from hlt).trans_eq Cert.Consts.ofBits_posInf)

/-- The precondition at all ones: both inputs hold reals only. -/
theorem reals_of_pre (a0 a1 : FVec Ideal S16x4096x3 .f32)
    (h : Cert.Pre_finite_inputs.fn (F := Ideal) a0 a1 = fun _ => 1#1) :
    (∀ i, ∃ r : ℝ, a0 i = (r : EReal)) ∧ (∀ i, ∃ r : ℝ, a1 i = (r : EReal)) := by
  have e := congrFun h ValueIdx.ix0
  dsimp only [Cert.Pre_finite_inputs.fn] at e
  obtain ⟨e0, e1⟩ := IntOp.andi_eq_one.1 e
  exact ⟨fun i => real_of_cmp a0 i (Host.reduce_andi_all _ _ _ _ _ e0 i),
    fun i => real_of_cmp a1 i (Host.reduce_andi_all _ _ _ _ _ e1 i)⟩

end Cert.Finite

end
-- ==== Proof.lean ====
/-
  The two-sided nearest-neighbour loss of two point clouds, batch by batch, and its mean over sixteen batches: a tiled
  kernel against the plain formula.

  For each batch both programs form the table  d(n, m) = |x_n|² + |y_m|² − 2 x_n·y_m  over 4096 × 4096 pairs of points in
  three coordinates, take  max( max_n min_m d(n, m),  max_m min_n d(n, m) ),  and average the sixteen results. The reference
  does so on whole arrays. The kernel receives the second cloud transposed, scales it by −2 before the three-term
  product, and visits the first cloud in eight tiles of 512 points, keeping a running maximum (from −∞) of the tiles'
  greatest row minima and a running row (from +∞) of column minima; at the end it writes the larger of the running
  maximum and the row's maximum to all 128 lanes of the batch's output row, and the host averages lane 0 of the rows.

  What makes the two equal at the extended reals: minima and maxima over a finite set do not depend on the order or
  grouping in which the set is visited, and the bottom and top elements are neutral for them (Proof/Lattice.lean); and
  with every input a real number, which the precondition says, scaling the factors by −2 inside the product is
  subtracting twice the product (Proof/Bridge.lean). Neither program changes its arguments, and the kernel's text is
  read at the extended reals with no rewrite, so the idealization claim has no conjunct.
-/
import proofs.«180744_j3006477107868_2_alg».proof.Defs
import proofs.«180744_j3006477107868_2_alg».proof.Proof.Gen.Kernel
import proofs.«180744_j3006477107868_2_alg».proof.Proof.Gen.Kernel.Skeleton
import proofs.«180744_j3006477107868_2_alg».proof.Proof.Gen.Kernel.Loops
import proofs.«180744_j3006477107868_2_alg».proof.Proof.Gen.Kernel.Launch
import proofs.«180744_j3006477107868_2_alg».proof.Proof.Gen.Kernel.Points
import proofs.«180744_j3006477107868_2_alg».proof.Proof.Gen.Kernel.Frame
import proofs.«180744_j3006477107868_2_alg».proof.Proof.Gen.KernelIdeal
import proofs.«180744_j3006477107868_2_alg».proof.Proof.Gen.KernelIdeal.Skeleton
import proofs.«180744_j3006477107868_2_alg».proof.Proof.Gen.KernelIdeal.Loops
import proofs.«180744_j3006477107868_2_alg».proof.Proof.Gen.KernelIdeal.Launch
import proofs.«180744_j3006477107868_2_alg».proof.Proof.Gen.KernelIdeal.Points
import proofs.«180744_j3006477107868_2_alg».proof.Proof.Gen.KernelIdeal.Frame
import proofs.«180744_j3006477107868_2_alg».proof.Proof.Gen.ReferenceIdeal
import proofs.«180744_j3006477107868_2_alg».proof.Proof.Gen.Pre_finite_inputs
import proofs.«180744_j3006477107868_2_alg».proof.Proof.Gen.ReferenceIdeal.Run
import proofs.«180744_j3006477107868_2_alg».proof.Proof.Gen.ReferenceIdeal.Read
import proofs.«180744_j3006477107868_2_alg».proof.Proof.KernelRun
import proofs.«180744_j3006477107868_2_alg».proof.Proof.RefSide
import proofs.«180744_j3006477107868_2_alg».proof.Proof.Bridge
import proofs.«180744_j3006477107868_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's text was printed at the extended reals with nothing rewritten. -/
theorem preserves : Cert.preserves_Kernel_KernelIdeal := trivial

/-- The kernel's sixteen losses are the reference's sixteen per-batch values, when both clouds hold reals: batch by
    batch both are the loss of one table (the kernel's on the transposed second cloud is the reference's). -/
theorem lossVec_eq (a0 a1 : Cert.KernelIdeal.S16x4096x3.Idx → EReal)
    (h0 : ∀ i, ∃ r : ℝ, a0 i = (r : EReal)) (h1 : ∀ i, ∃ r : ℝ, a1 i = (r : EReal)) :
    Cert.KernelIdeal.KernelRun.lossVec a0
        (transpose Cert.KernelIdeal.S16x3x4096 [0, 2, 1] a1 Cert.KernelIdeal.Facts₀.transposes_S16x4096x3_S16x3x4096_0_2_1)
      = Cert.ReferenceIdeal.Read.val_main_v17 (F := Ideal) a0 a1 := by
  funext i
  obtain ⟨b, rfl⟩ : ∃ b : Fin 16, i = ValueIdx.ix1 b := ⟨i 0, ValueIdx.eq_ix1 i⟩
  rw [Cert.ReferenceIdeal.RefValue.v17_apply]
  exact congrArg Cert.Lattice.loss (Cert.Bridge.arrDist_eq_refDist a0 a1 h0 h1 b)

/-- From memories that agree on the two clouds, both programs end with the mean of the same sixteen losses. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Finite.reals_of_pre _ _ (hpre c)
  rw [Cert.ReferenceIdeal.Read.val_main_v19_eq, (hagree c).1, (hagree c).2, lossVec_eq _ _ h0 h1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
